-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S4096x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8192x1024 : Shape := ⟨2, ![8192, 1024]⟩
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S4096x8192 : Shape := ⟨2, ![4096, 8192]⟩
abbrev S2048x1024 : Shape := ⟨2, ![2048, 1024]⟩

abbrev nBuf : Space → Nat
  | .hbm => 20
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S8192x1024, .bf16⟩
  | .hbm, ⟨18, _⟩ => ⟨S4096x1024, .bf16⟩
  | .hbm, ⟨19, _⟩ => ⟨S4096x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S2048x1024, .f32⟩
  | .local _ .vmem, ⟨19, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  packedbf16_S1024x1024_S1024x1024_0_0 : (Rect.unit (s := S1024x1024) ![0, 0] S1024x1024.size inb_S1024x1024_S1024x1024_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S1024x1024_S1024x1024_S1024x1024_1_0_0_1_n_n_wf : DotDims.WF S1024x1024 S1024x1024 S1024x1024 [1] [0] [0] [1] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x1024.size a
  hwx2_0 : ∀ i : grid2.Coords, EltTy.bits .bf16 = 32 ∨ (Rect.block (s := S4096x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S4096x8192.size a
  hwx2_2 : ∀ i : grid2.Coords, EltTy.bits .f32 = 32 ∨ (Rect.block (s := S4096x8192) S2048x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1024x8192 : Shape := ⟨2, ![1024, 8192]⟩
abbrev S4096x8192 : Shape := ⟨2, ![4096, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S1024x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S8192x1024, .f32⟩
  | .hbm, ⟨45, _⟩ => ⟨S8192x1024, .f32⟩
  | .hbm, ⟨46, _⟩ => ⟨S1024x8192, .f32⟩
  | .hbm, ⟨47, _⟩ => ⟨S4096x8192, .f32⟩
  | .hbm, ⟨48, _⟩ => ⟨S_, .f32⟩
  | .hbm, ⟨49, _⟩ => ⟨S4096x8192, .f32⟩
  | .hbm, ⟨50, _⟩ => ⟨S4096x8192, .f32⟩
  | .hbm, ⟨51, _⟩ => ⟨S_, .f32⟩
  | .hbm, ⟨52, _⟩ => ⟨S4096x8192, .f32⟩
  | .hbm, ⟨53, _⟩ => ⟨S4096x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_call2_v2 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S1x1024_S4096x1024_0_1 : S1x1024.BroadcastsInDim S4096x1024 (![0, 1] : Fin 2 → Fin S4096x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S4096x8192 : S_.BroadcastsInDim S4096x8192 (![] : Fin 0 → Fin S4096x8192.rank)
  dot_S8192x1024_S1024x1024_S8192x1024_1_0_0_1_n_n_wf : DotDims.WF S8192x1024 S1024x1024 S8192x1024 [1] [0] [0] [1] [] []
  dot_S4096x1024_S1024x1024_S4096x1024_1_0_0_1_n_n_wf : DotDims.WF S4096x1024 S1024x1024 S4096x1024 [1] [0] [0] [1] [] []
  dot_S4096x1024_S1024x8192_S4096x8192_1_0_0_1_n_n_wf : DotDims.WF S4096x1024 S1024x8192 S4096x8192 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf

class Facts : Prop extends Facts₀ where

variable [Facts]
-- ==== Proof.Spec.lean ====
/-
  What both programs compute, on the extended reals, row by row.

  A feature row `x` (1024 reals) goes through an affine layer, a rectifier and a second affine layer, and is then divided
  by its Euclidean norm clamped from below at a fixed small constant; a keyword row goes through one affine layer and the
  same normalisation. The result at (keyword `q`, feature `r`) is the inner product of the two normalised rows, plus
  one, times a fixed constant: a cosine similarity moved from [-1, 1] to roughly [0, 0.98].

  Everything is stated over functions of `Fin 1024`, so a row of either program, however it is tiled or transposed in
  memory, is compared here as a plain function of its column. The four constants stay as the binary words both programs
  print; no step below evaluates them.
-/
import Idealize.ShloMosaic.PureOps.Ideal
import Idealize.ShloMosaic.Lib.ValueIdx

noncomputable section

open scoped BigOperators

namespace Cert.CosSim

open Idealize.ShloMosaic Idealize.ShloMosaic.ValueIdx

/-- An affine layer on one row: output `h` is the sum over inputs `i` of `x i` times the weight `w i h` from input `i` to
    output `h`, plus the bias `b h`. -/
def affine (x : Fin 1024 → EReal) (w : Fin 1024 → Fin 1024 → EReal) (b : Fin 1024 → EReal) (h : Fin 1024) : EReal :=
  (∑ i : Fin 1024, x i * w i h) + b h

/-- The rectifier, entry by entry: the larger of the entry and zero (zero as the word both programs print). -/
def relu (v : Fin 1024 → EReal) (j : Fin 1024) : EReal :=
  max (v j) (Ideal.ofBits .f32 0x00000000#32)

/-- A row's Euclidean norm — the square root of the sum of its squares — clamped from below at the small constant. -/
def clampedNorm (v : Fin 1024 → EReal) : EReal :=
  max (Ideal.sqrt (∑ k : Fin 1024, v k * v k)) (Ideal.ofBits .f32 0x322BCC77#32)

/-- A row divided by its clamped norm. -/
def normalize (v : Fin 1024 → EReal) (h : Fin 1024) : EReal :=
  Ideal.div (v h) (clampedNorm v)

/-- A feature row: affine, rectifier, affine, normalised. -/
def featRow (x : Fin 1024 → EReal) (w1 : Fin 1024 → Fin 1024 → EReal) (b1 : Fin 1024 → EReal)
    (w2 : Fin 1024 → Fin 1024 → EReal) (b2 : Fin 1024 → EReal) : Fin 1024 → EReal :=
  normalize (affine (relu (affine x w1 b1)) w2 b2)

/-- A keyword row: affine, normalised. -/
def kwRow (x : Fin 1024 → EReal) (wk : Fin 1024 → Fin 1024 → EReal) (bk : Fin 1024 → EReal) : Fin 1024 → EReal :=
  normalize (affine x wk bk)

/-- The score of a normalised keyword row against a normalised feature row: their inner product, plus one, times the
    scale constant. -/
def score (kr fr : Fin 1024 → EReal) : EReal :=
  ((∑ h : Fin 1024, kr h * fr h) + Ideal.ofBits .f32 0x3F800000#32) * Ideal.ofBits .f32 0x3EFAE148#32

/-! ## On the argument arrays

The weights arrive as [output, input] matrices, so the weight from input `i` to output `h` is the matrix at (h, i). -/

/-- Row `r` of the normalised features, from the feature array and the two layers' weights and biases. -/
def featUnit (x0 : (⟨2, ![8192, 1024]⟩ : Shape).Idx → EReal) (x2 : (⟨2, ![1024, 1024]⟩ : Shape).Idx → EReal)
    (x3 : (⟨1, ![1024]⟩ : Shape).Idx → EReal) (x4 : (⟨2, ![1024, 1024]⟩ : Shape).Idx → EReal)
    (x5 : (⟨1, ![1024]⟩ : Shape).Idx → EReal) (r : Fin 8192) : Fin 1024 → EReal :=
  featRow (fun i => x0 (ix2 r i)) (fun i j => x2 (ix2 j i)) (fun j => x3 (ix1 j)) (fun j h => x4 (ix2 h j)) (fun h => x5 (ix1 h))

/-- Row `q` of the normalised keywords, from the keyword array and its layer's weight and bias. -/
def kwUnit (x1 : (⟨2, ![4096, 1024]⟩ : Shape).Idx → EReal) (x6 : (⟨2, ![1024, 1024]⟩ : Shape).Idx → EReal)
    (x7 : (⟨1, ![1024]⟩ : Shape).Idx → EReal) (q : Fin 4096) : Fin 1024 → EReal :=
  kwRow (fun i => x1 (ix2 q i)) (fun i h => x6 (ix2 h i)) (fun h => x7 (ix1 h))

/-- The whole result: at (q, r), keyword row `q` scored against feature row `r`. -/
def out (x0 : (⟨2, ![8192, 1024]⟩ : Shape).Idx → EReal) (x1 : (⟨2, ![4096, 1024]⟩ : Shape).Idx → EReal)
    (x2 : (⟨2, ![1024, 1024]⟩ : Shape).Idx → EReal) (x3 : (⟨1, ![1024]⟩ : Shape).Idx → EReal)
    (x4 : (⟨2, ![1024, 1024]⟩ : Shape).Idx → EReal) (x5 : (⟨1, ![1024]⟩ : Shape).Idx → EReal)
    (x6 : (⟨2, ![1024, 1024]⟩ : Shape).Idx → EReal) (x7 : (⟨1, ![1024]⟩ : Shape).Idx → EReal) :
    (⟨2, ![4096, 8192]⟩ : Shape).Idx → EReal :=
  fun i => score (kwUnit x1 x6 x7 (i 0)) (featUnit x0 x2 x3 x4 x5 (i 1))

/-- The result at an index given by its coordinates. -/
theorem out_ix2 (x0 : (⟨2, ![8192, 1024]⟩ : Shape).Idx → EReal) (x1 : (⟨2, ![4096, 1024]⟩ : Shape).Idx → EReal)
    (x2 : (⟨2, ![1024, 1024]⟩ : Shape).Idx → EReal) (x3 : (⟨1, ![1024]⟩ : Shape).Idx → EReal)
    (x4 : (⟨2, ![1024, 1024]⟩ : Shape).Idx → EReal) (x5 : (⟨1, ![1024]⟩ : Shape).Idx → EReal)
    (x6 : (⟨2, ![1024, 1024]⟩ : Shape).Idx → EReal) (x7 : (⟨1, ![1024]⟩ : Shape).Idx → EReal)
    (q : Fin 4096) (r : Fin 8192) :
    out x0 x1 x2 x3 x4 x5 x6 x7 (ix2 q r) = score (kwUnit x1 x6 x7 q) (featUnit x0 x2 x3 x4 x5 r) := rfl

end Cert.CosSim

end
-- ==== Proof.RefValue.lean ====
/-
  The reference side: the idealized reference program's result, read one operation at a time, is the row-by-row
  specification. Each lemma below reads one stage of the program at an index given by its coordinates and identifies
  it with the matching piece of the specification: the affine layers, the rectifier, the clamped norm, the normalised
  rows, and finally the score.
-/
import proofs.«116121_j87101936763140_2_alg».proof.Proof.Gen.ReferenceIdeal.Read
import proofs.«116121_j87101936763140_2_alg».proof.Proof.Spec

noncomputable section

open scoped BigOperators

namespace Cert.CosSim.Ref

open Idealize.ShloMosaic Idealize.ShloMosaic.ValueIdx
open Cert.ReferenceIdeal Cert.ReferenceIdeal.Gen Cert.ReferenceIdeal.Read

/-- The first layer's pre-activation: entry (r, j) of the first matrix product plus bias is the affine layer applied to
    row r of the features, with the weight from input i to output j read at (j, i) of the weight matrix. -/
theorem v4_at (x0 : (⟨S8192x1024, .f32⟩ : BufTy).Contents (Elt Ideal)) (x2 : (⟨S1024x1024, .f32⟩ : BufTy).Contents (Elt Ideal))
    (x3 : (⟨S1024, .f32⟩ : BufTy).Contents (Elt Ideal)) (r : Fin 8192) (j : Fin 1024) :
    val_main_v4 (F := Ideal) x0 x2 x3 (ix2 r j)
      = Cert.CosSim.affine (fun i => x0 (ix2 r i)) (fun i j => x2 (ix2 j i)) (fun j => x3 (ix1 j)) j := by
  rw [val_main_v4_apply, val_main_v1_apply, val_main_v3_apply, val_main_v2_apply, Ideal.addf_def]
  unfold Cert.CosSim.affine
  refine congrArg₂ (· + ·) (Finset.sum_congr rfl fun k _ => ?_) ?_
  · rw [val_main_v0_apply]
    refine congrArg₂ (· * ·) (congrArg x0 ?_) (congrArg x2 ?_)
    · funext a; match a with | ⟨0, _⟩ => rfl | ⟨1, _⟩ => rfl
    · funext a; match a with | ⟨0, _⟩ => rfl | ⟨1, _⟩ => rfl
  · refine congrArg x3 ?_
    funext a; match a with | ⟨0, _⟩ => rfl

/-- The rectifier: entry (r, j) of the rectified first layer is the specification's rectifier of the affine layer. -/
theorem v5_at (x0 : (⟨S8192x1024, .f32⟩ : BufTy).Contents (Elt Ideal)) (x2 : (⟨S1024x1024, .f32⟩ : BufTy).Contents (Elt Ideal))
    (x3 : (⟨S1024, .f32⟩ : BufTy).Contents (Elt Ideal)) (r : Fin 8192) (j : Fin 1024) :
    val_main_v5 (F := Ideal) x0 x2 x3 (ix2 r j)
      = Cert.CosSim.relu (Cert.CosSim.affine (fun i => x0 (ix2 r i)) (fun i j => x2 (ix2 j i)) (fun j => x3 (ix1 j))) j := by
  rw [val_main_v5_apply, v4_at, val_main_call0_v0_apply, val_main_call0_cst_apply, Ideal.maximumf_def, Ideal.ofBits_def]
  rfl

/-- Row r of the features after the two layers, before normalisation. -/
def featPre (x0 : (⟨S8192x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (r : Fin 8192) : Fin 1024 → EReal :=
  Cert.CosSim.affine
    (Cert.CosSim.relu (Cert.CosSim.affine (fun i => x0 (ix2 r i)) (fun i j => x2 (ix2 j i)) (fun j => x3 (ix1 j))))
    (fun j h => x4 (ix2 h j)) (fun h => x5 (ix1 h))

/-- The specification's feature row is the two-layer row divided by its clamped norm. -/
theorem featUnit_eq (x0 : (⟨S8192x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (r : Fin 8192) :
    Cert.CosSim.featUnit x0 x2 x3 x4 x5 r = Cert.CosSim.normalize (featPre x0 x2 x3 x4 x5 r) := rfl

/-- Row q of the keywords after their layer, before normalisation. -/
def kwPre (x1 : (⟨S4096x1024, .f32⟩ : BufTy).Contents (Elt Ideal)) (x6 : (⟨S1024x1024, .f32⟩ : BufTy).Contents (Elt Ideal))
    (x7 : (⟨S1024, .f32⟩ : BufTy).Contents (Elt Ideal)) (q : Fin 4096) : Fin 1024 → EReal :=
  Cert.CosSim.affine (fun i => x1 (ix2 q i)) (fun i h => x6 (ix2 h i)) (fun h => x7 (ix1 h))

/-- The specification's keyword row is the one-layer row divided by its clamped norm. -/
theorem kwUnit_eq (x1 : (⟨S4096x1024, .f32⟩ : BufTy).Contents (Elt Ideal)) (x6 : (⟨S1024x1024, .f32⟩ : BufTy).Contents (Elt Ideal))
    (x7 : (⟨S1024, .f32⟩ : BufTy).Contents (Elt Ideal)) (q : Fin 4096) :
    Cert.CosSim.kwUnit x1 x6 x7 q = Cert.CosSim.normalize (kwPre x1 x6 x7 q) := rfl

/-- The second layer: entry (r, h) of the second matrix product plus bias is the affine layer applied to the rectified
    first layer of row r, with the weight from j to h read at (h, j). -/
theorem v10_at (x0 : (⟨S8192x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (r : Fin 8192) (h : Fin 1024) :
    val_main_v10 (F := Ideal) x0 x2 x3 x4 x5 (ix2 r h) = featPre x0 x2 x3 x4 x5 r h := by
  rw [val_main_v10_apply, val_main_v7_apply, val_main_v9_apply, val_main_v8_apply, Ideal.addf_def]
  show _ = (∑ i : Fin 1024, _ * _) + _
  refine congrArg₂ (· + ·) (Finset.sum_congr rfl fun k _ => ?_) ?_
  · rw [val_main_v6_apply]
    refine congrArg₂ (· * ·) ?_ (congrArg x4 ?_)
    · refine Eq.trans (congrArg (val_main_v5 (F := Ideal) x0 x2 x3) ?_) (v5_at x0 x2 x3 r k)
      funext a; match a with | ⟨0, _⟩ => rfl | ⟨1, _⟩ => rfl
    · funext a; match a with | ⟨0, _⟩ => rfl | ⟨1, _⟩ => rfl
  · refine congrArg x5 ?_
    funext a; match a with | ⟨0, _⟩ => rfl

/-- The clamped norm of a feature row: the square root of the sum of the squares of row r of the second layer, clamped
    from below at the small constant. The sum starts from the zero word, which is zero. -/
theorem v18_at (x0 : (⟨S8192x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (r : Fin 8192) :
    val_main_v18 (F := Ideal) x0 x2 x3 x4 x5 (ix2 r (0 : Fin 1)) = Cert.CosSim.clampedNorm (featPre x0 x2 x3 x4 x5 r) := by
  rw [val_main_v18_apply, val_main_v16_apply, val_main_call1_v2_apply, val_main_call1_v1_apply, val_main_v17_apply,
    val_main_cst_apply, val_main_call1_cst_apply, Ideal.maximumf_def, Ideal.hostUnary_sqrt_def]
  simp only [Ideal.ofBits_def]
  rw [Ideal.ofBits_zero_f32, zero_add]
  unfold Cert.CosSim.clampedNorm
  refine congrArg (fun s => max (Ideal.sqrt s) _) (Finset.sum_congr rfl fun k _ => ?_)
  have hi : idx_main_call1_v1 (idx_main_call1_v2 (ix2 r (0 : Fin 1))) k = ix2 r k := by
    funext a; match a with | ⟨0, _⟩ => rfl | ⟨1, _⟩ => rfl
  rw [val_main_call1_v0_apply, Ideal.mulf_def, hi, v10_at]

/-- The normalised features: entry (r, h) of the second layer divided by the clamped norm of row r, broadcast along the
    row, is entry h of the specification's feature row r. -/
theorem v25_at (x0 : (⟨S8192x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (r : Fin 8192) (h : Fin 1024) :
    val_main_v25 (F := Ideal) x0 x2 x3 x4 x5 (ix2 r h) = Cert.CosSim.featUnit x0 x2 x3 x4 x5 r h := by
  have hi : idx_main_v24 (ix2 r h) = ix2 r (0 : Fin 1) := by
    funext a; match a with | ⟨0, _⟩ => rfl | ⟨1, _⟩ => rfl
  rw [val_main_v25_apply, val_main_v24_apply, hi, v18_at, v10_at, Ideal.hostDivf_def, featUnit_eq]
  rfl

/-- The keyword layer: entry (q, h) of the keyword matrix product plus bias is the affine layer applied to row q of the
    keywords, with the weight from input i to output h read at (h, i). -/
theorem v15_at (x1 : (⟨S4096x1024, .f32⟩ : BufTy).Contents (Elt Ideal)) (x6 : (⟨S1024x1024, .f32⟩ : BufTy).Contents (Elt Ideal))
    (x7 : (⟨S1024, .f32⟩ : BufTy).Contents (Elt Ideal)) (q : Fin 4096) (h : Fin 1024) :
    val_main_v15 (F := Ideal) x1 x6 x7 (ix2 q h) = kwPre x1 x6 x7 q h := by
  rw [val_main_v15_apply, val_main_v12_apply, val_main_v14_apply, val_main_v13_apply, Ideal.addf_def]
  show _ = (∑ i : Fin 1024, _ * _) + _
  refine congrArg₂ (· + ·) (Finset.sum_congr rfl fun k _ => ?_) ?_
  · rw [val_main_v11_apply]
    refine congrArg₂ (· * ·) (congrArg x1 ?_) (congrArg x6 ?_)
    · funext a; match a with | ⟨0, _⟩ => rfl | ⟨1, _⟩ => rfl
    · funext a; match a with | ⟨0, _⟩ => rfl | ⟨1, _⟩ => rfl
  · refine congrArg x7 ?_
    funext a; match a with | ⟨0, _⟩ => rfl

/-- The clamped norm of a keyword row: the square root of the sum of the squares of row q of the keyword layer, clamped
    from below at the small constant. The sum starts from the zero word, which is zero. -/
theorem v21_at (x1 : (⟨S4096x1024, .f32⟩ : BufTy).Contents (Elt Ideal)) (x6 : (⟨S1024x1024, .f32⟩ : BufTy).Contents (Elt Ideal))
    (x7 : (⟨S1024, .f32⟩ : BufTy).Contents (Elt Ideal)) (q : Fin 4096) :
    val_main_v21 (F := Ideal) x1 x6 x7 (ix2 q (0 : Fin 1)) = Cert.CosSim.clampedNorm (kwPre x1 x6 x7 q) := by
  rw [val_main_v21_apply, val_main_v19_apply, val_main_call2_v2_apply, val_main_call2_v1_apply, val_main_v20_apply,
    val_main_cst_0_apply, val_main_call2_cst_apply, Ideal.maximumf_def, Ideal.hostUnary_sqrt_def]
  simp only [Ideal.ofBits_def]
  rw [Ideal.ofBits_zero_f32, zero_add]
  unfold Cert.CosSim.clampedNorm
  refine congrArg (fun s => max (Ideal.sqrt s) _) (Finset.sum_congr rfl fun k _ => ?_)
  have hi : idx_main_call2_v1 (idx_main_call2_v2 (ix2 q (0 : Fin 1))) k = ix2 q k := by
    funext a; match a with | ⟨0, _⟩ => rfl | ⟨1, _⟩ => rfl
  rw [val_main_call2_v0_apply, Ideal.mulf_def, hi, v15_at]

/-- The normalised keywords: entry (q, h) of the keyword layer divided by the clamped norm of row q, broadcast along the
    row, is entry h of the specification's keyword row q. -/
theorem v23_at (x1 : (⟨S4096x1024, .f32⟩ : BufTy).Contents (Elt Ideal)) (x6 : (⟨S1024x1024, .f32⟩ : BufTy).Contents (Elt Ideal))
    (x7 : (⟨S1024, .f32⟩ : BufTy).Contents (Elt Ideal)) (q : Fin 4096) (h : Fin 1024) :
    val_main_v23 (F := Ideal) x1 x6 x7 (ix2 q h) = Cert.CosSim.kwUnit x1 x6 x7 q h := by
  have hi : idx_main_v22 (ix2 q h) = ix2 q (0 : Fin 1) := by
    funext a; match a with | ⟨0, _⟩ => rfl | ⟨1, _⟩ => rfl
  rw [val_main_v23_apply, val_main_v22_apply, hi, v21_at, v15_at, Ideal.hostDivf_def, kwUnit_eq]
  rfl

/-- The similarity matrix: entry (q, r) of the product of the normalised keywords with the transposed normalised
    features is the inner product of keyword row q with feature row r. -/
theorem v27_at (x0 : (⟨S8192x1024, .f32⟩ : BufTy).Contents (Elt Ideal)) (x1 : (⟨S4096x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) (q : Fin 4096) (r : Fin 8192) :
    val_main_v27 (F := Ideal) x0 x1 x2 x3 x4 x5 x6 x7 (ix2 q r)
      = ∑ k : Fin 1024, Cert.CosSim.kwUnit x1 x6 x7 q k * Cert.CosSim.featUnit x0 x2 x3 x4 x5 r k := by
  rw [val_main_v27_apply]
  refine Finset.sum_congr rfl fun k _ => ?_
  have hl : lidx_main_v27 (ix2 q r) k = ix2 q k := by
    funext a; match a with | ⟨0, _⟩ => rfl | ⟨1, _⟩ => rfl
  have hr : idx_main_v26 (ridx_main_v27 (ix2 q r) k) = ix2 r k := by
    funext a; match a with | ⟨0, _⟩ => rfl | ⟨1, _⟩ => rfl
  rw [val_main_v26_apply, hl, hr, v23_at, v25_at]

/-- The whole reference result is the specification: at (q, r), the inner product of the two normalised rows, plus the
    word for one, times the scale word. -/
theorem ref_out (x0 : (⟨S8192x1024, .f32⟩ : BufTy).Contents (Elt Ideal)) (x1 : (⟨S4096x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) :
    Cert.ReferenceIdeal.Read.val_main_v31 (F := Ideal) x0 x1 x2 x3 x4 x5 x6 x7 = Cert.CosSim.out x0 x1 x2 x3 x4 x5 x6 x7 := by
  funext i
  obtain ⟨q, r, rfl⟩ : ∃ (q : Fin 4096) (r : Fin 8192), i = ix2 q r := ⟨i 0, i 1, eq_ix2 i⟩
  rw [Cert.CosSim.out_ix2, val_main_v31_apply, val_main_v29_apply, val_main_v28_apply, val_main_v30_apply,
    val_main_cst_1_apply, val_main_cst_2_apply, v27_at, Ideal.mulf_def, Ideal.addf_def]
  rfl

end Cert.CosSim.Ref

end
-- ==== Proof.KernelRun.lean ====
/-
  The idealized kernel's whole run, with the result named.

  The program is three regions in a row after a stretch of host operations. Its generated frame already follows the
  buffers through every segment: `W1` after the host stretch, `W2`, `W3`, `W4` after each region's write-backs. At the
  end every unscoped buffer holds `W4`'s contents; the frame keeps only the eight argument arrays of that. Here the same
  run keeps one more buffer, the result: it ends at `W4`'s contents too.
-/
import proofs.«116121_j87101936763140_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    last region's write-backs leave (`W4`), and the eight argument arrays end as launched. -/
theorem run : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.HostReads.lean ====
/-
  What each region finds in its windows' arrays when it is entered.

  Before the first region a stretch of host operations prepares the weights and biases: each [output, input] weight matrix
  is transposed (and its format changed, which is the identity on the extended reals), and each bias vector of length 1024
  is reshaped to one row [1, 1024]. So the prepared weight at (i, j) is the argument matrix at (j, i), and the prepared
  bias at (0, j) is the argument vector at j; the feature and keyword arrays are read as launched. No region writes any of
  these buffers, so the second region still finds the keyword side's as the host stretch left them. The third region reads
  what the first two regions wrote: the normalised keywords and the normalised features; and the program's result is what
  the third region's write-backs leave.
-/
import proofs.«116121_j87101936763140_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.CosSim.Host

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-! ## A transposed weight and a reshaped bias, read at an index -/

/-- A transposed square matrix at (i, j) is the matrix at (j, i). -/
theorem transposed_at (x : FVec Ideal S1024x1024 .f32) (i j : Fin 1024) :
    transpose S1024x1024 [1, 0] x transposes_S1024x1024_S1024x1024_1_0 (ix2 i j) = x (ix2 j i) :=
  transpose_apply [1, 0] x transposes_S1024x1024_S1024x1024_1_0 (ix2 i j) (ix2 j i) (fun b => match b with
    | ⟨0, _⟩ => rfl
    | ⟨1, _⟩ => rfl)

/-- A vector reshaped to one row, at (0, j), is the vector at j. -/
theorem row_at (x : S1024.Idx → EReal) (j : Fin 1024) :
    shapeCast S1x1024 x shapeCasts_S1024_S1x1024 (ix2 (0 : Fin 1) j) = x (ix1 j) := by
  refine (shapeCast_addUnit_apply ![1024] x shapeCasts_S1024_S1x1024 (ix2 (0 : Fin 1) j)).trans ?_
  refine congrArg x (funext fun a => ?_)
  match a with
  | ⟨0, _⟩ => rfl

/-! ## The first region's windows (entry contents `V1`: after the host stretch) -/

/-- The feature array is as launched. -/
theorem V1_arg0 (c : Dev nD) : V1 m ρ c main_arg0 = m ((c : Thread nD τ).loc main_arg0) := by
  show StableHlo.after hostOps0 (W0 m ρ c) (Proc.devRef .tc main_arg0) = _
  after_results

/-- The first layer's prepared weight at (i, j) is the first weight matrix at (j, i). -/
theorem V1_v1_at (c : Dev nD) (i j : Fin 1024) :
    V1 m ρ c main_v1 (ix2 i j) = m ((c : Thread nD τ).loc main_arg2) (ix2 j i) := by
  have e : (V1 m ρ c main_v1 : S1024x1024.Idx → EReal)
      = truncf (F := Ideal) .bf16 (transpose S1024x1024 [1, 0] (m ((c : Thread nD τ).loc main_arg2) : FVec Ideal S1024x1024 .f32) transposes_S1024x1024_S1024x1024_1_0) bitsLt_bf16_f32 := by
    show StableHlo.after hostOps0 (W0 m ρ c) (Proc.devRef .tc main_v1) = _
    after_results
  exact (congrFun e (ix2 i j)).trans (transposed_at _ i j)

/-- The second layer's prepared weight at (i, j) is the second weight matrix at (j, i). -/
theorem V1_v3_at (c : Dev nD) (i j : Fin 1024) :
    V1 m ρ c main_v3 (ix2 i j) = m ((c : Thread nD τ).loc main_arg4) (ix2 j i) := by
  have e : (V1 m ρ c main_v3 : S1024x1024.Idx → EReal)
      = truncf (F := Ideal) .bf16 (transpose S1024x1024 [1, 0] (m ((c : Thread nD τ).loc main_arg4) : FVec Ideal S1024x1024 .f32) transposes_S1024x1024_S1024x1024_1_0) bitsLt_bf16_f32 := by
    show StableHlo.after hostOps0 (W0 m ρ c) (Proc.devRef .tc main_v3) = _
    after_results
  exact (congrFun e (ix2 i j)).trans (transposed_at _ i j)

/-- The first layer's prepared bias at (0, j) is the first bias vector at j. -/
theorem V1_v6_at (c : Dev nD) (j : Fin 1024) :
    V1 m ρ c main_v6 (ix2 (0 : Fin 1) j) = m ((c : Thread nD τ).loc main_arg3) (ix1 j) := by
  have e : (V1 m ρ c main_v6 : S1x1024.Idx → EReal)
      = shapeCast S1x1024 (m ((c : Thread nD τ).loc main_arg3) : S1024.Idx → EReal) shapeCasts_S1024_S1x1024 := by
    show StableHlo.after hostOps0 (W0 m ρ c) (Proc.devRef .tc main_v6) = _
    after_results
    rfl
  exact (congrFun e (ix2 (0 : Fin 1) j)).trans (row_at _ j)

/-- The second layer's prepared bias at (0, j) is the second bias vector at j. -/
theorem V1_v7_at (c : Dev nD) (j : Fin 1024) :
    V1 m ρ c main_v7 (ix2 (0 : Fin 1) j) = m ((c : Thread nD τ).loc main_arg5) (ix1 j) := by
  have e : (V1 m ρ c main_v7 : S1x1024.Idx → EReal)
      = shapeCast S1x1024 (m ((c : Thread nD τ).loc main_arg5) : S1024.Idx → EReal) shapeCasts_S1024_S1x1024 := by
    show StableHlo.after hostOps0 (W0 m ρ c) (Proc.devRef .tc main_v7) = _
    after_results
    rfl
  exact (congrFun e (ix2 (0 : Fin 1) j)).trans (row_at _ j)

/-! ## The second region's windows (entry contents `V2`: the first region wrote none of them) -/

/-- The keyword array is as launched. -/
theorem V2_arg1 (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results

/-- The keyword layer's prepared weight at (i, j) is the keyword weight matrix at (j, i). -/
theorem V2_v5_at (c : Dev nD) (i j : Fin 1024) :
    V2 m ρ c main_v5 (ix2 i j) = m ((c : Thread nD τ).loc main_arg6) (ix2 j i) := by
  have e : (V2 m ρ c main_v5 : S1024x1024.Idx → EReal)
      = truncf (F := Ideal) .bf16 (transpose S1024x1024 [1, 0] (m ((c : Thread nD τ).loc main_arg6) : FVec Ideal S1024x1024 .f32) transposes_S1024x1024_S1024x1024_1_0) bitsLt_bf16_f32 := by
    refine (W2_of_ne m ρ c main_v5 (by decide)).trans ?_
    show StableHlo.after hostOps0 (W0 m ρ c) (Proc.devRef .tc main_v5) = _
    after_results
  exact (congrFun e (ix2 i j)).trans (transposed_at _ i j)

/-- The keyword layer's prepared bias at (0, j) is the keyword bias vector at j. -/
theorem V2_v8_at (c : Dev nD) (j : Fin 1024) :
    V2 m ρ c main_v8 (ix2 (0 : Fin 1) j) = m ((c : Thread nD τ).loc main_arg7) (ix1 j) := by
  have e : (V2 m ρ c main_v8 : S1x1024.Idx → EReal)
      = shapeCast S1x1024 (m ((c : Thread nD τ).loc main_arg7) : S1024.Idx → EReal) shapeCasts_S1024_S1x1024 := by
    refine (W2_of_ne m ρ c main_v8 (by decide)).trans ?_
    show StableHlo.after hostOps0 (W0 m ρ c) (Proc.devRef .tc main_v8) = _
    after_results
    rfl
  exact (congrFun e (ix2 (0 : Fin 1) j)).trans (row_at _ j)

/-! ## The third region's windows, and the result -/

/-- The third region finds the normalised keywords as the second region's write-backs left them. -/
theorem V3_v10 (c : Dev nD) : V3 m ρ c main_v10 = (dat1 (V2 m ρ) c).arrAt 3 cfg1.N :=
  W3_arr m ρ c 3

/-- The third region finds the normalised features as the first region's write-backs left them: the second region does
    not touch that buffer. -/
theorem V3_v9 (c : Dev nD) : V3 m ρ c main_v9 = (dat0 (V1 m ρ) c).arrAt 5 cfg0.N :=
  (W3_of_ne m ρ c main_v9 (by decide)).trans (W2_arr m ρ c 5)

/-- The result buffer ends as the third region's write-backs leave it. -/
theorem W4_v11 (c : Dev nD) : W4 m ρ c (Proc.devRef .tc main_v11) = (dat2 (V3 m ρ) c).arrAt 2 cfg2.N :=
  W4_arr m ρ c 2

end Cert.CosSim.Host

end
-- ==== Proof.LibColumnLayout.lean ====
/-
  Two layout steps that every row-wise reduction kept as a column needs, read at an index.

  A sum along the rows of an [a, b] block is a vector of length a. Kept "as a column" it is viewed as an [a, 1] array, and to
  be combined with the block again it is spread over the b columns. Read at an entry, both steps only pick the row: the
  column at (i, u) is the vector at i, and the spread column at (p, c) is the column at (p, 0). Stated for any extents and
  any element type; no program is involved.
-/
import Idealize.ShloMosaic.Lib.ValueIdx
import Idealize.ShloMosaic.Lib.ValueLayout
import Idealize.ShloMosaic.Lib.Pipeline.Value

noncomputable section

namespace Cert.Lib.ColumnLayout

open Idealize.ShloMosaic Idealize.ShloMosaic.ValueIdx

/-- A vector of length `a` viewed as an `[a, 1]` column reads, at `(i, u)`, the vector at `i`, whatever the unit
    coordinate `u`: both positions are the `i`-th in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` columns reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout

end
-- ==== Proof.Payload.lean ====
/-
  The three kernel bodies' stored values, read one element at a time, on the extended reals.

  Each body is a chain of whole-block operations: matrix products into a zero block, a bias row added to every row,
  an entrywise maximum, a row-wise sum of squares kept as a column, a square root, a clamp from below, and a division
  of each row by its column entry. Read at row `p`, column `q`, every one of these is a statement about row `p` alone:
  a matrix product is a sum over the contracted coordinate, the bias row is read at `q`, the column of norms is read
  at `p`. So the feature body's element is the specification's feature row of row `p` of its input block, at `q`; the
  keyword body's is the keyword row; and the scoring body's element at `(p, q)` is the score of row `p` of its first
  block against row `q` of its second.
-/
import proofs.«116121_j87101936763140_2_alg».proof.Proof.Gen.KernelIdeal.Skeleton
import proofs.«116121_j87101936763140_2_alg».proof.Proof.Spec
import proofs.«116121_j87101936763140_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.CosSim.Pay

open Idealize.ShloMosaic Idealize.ShloMosaic.ValueIdx
open Cert.KernelIdeal Cert.KernelIdeal.Gen
open Cert.Lib.ColumnLayout

/-! ## The two matrix products at an index

Each product's dimension numbers name one contracted axis on each side. The operand indices at a result index and a
contraction index are read off axis by axis: a kept axis takes the result's coordinate, the contracted axis the
contraction coordinate. -/

/-- Rows against columns, left operand, row axis: the result's row. -/
theorem lhs_rc_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- Rows against columns, left operand, column axis: the contraction coordinate. -/
theorem lhs_rc_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
/-- Rows against columns, right operand, row axis: the contraction coordinate. -/
theorem rhs_rc_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
/-- Rows against columns, right operand, column axis: the result's column. -/
theorem rhs_rc_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- Rows against columns: the product of two 1024 × 1024 blocks into the zero block, contracting the left block's columns
    with the right block's rows, is at `(p, q)` the sum over `k` of the left block at `(p, k)` times the right block at
    `(k, q)`. -/
theorem matmul_rows_cols {φ₁ φ₂ : FTy} (A : FVec Ideal S1024x1024 φ₁) (B : FVec Ideal S1024x1024 φ₂) (p q : Fin 1024) :
    matmul dot_S1024x1024_S1024x1024_S1024x1024_1_0_0_1_n_n none A B (constant (F := Ideal) S1024x1024 .f32 0x00000000#32) (ix2 p q)
      = ∑ k : Fin 1024, A (ix2 p k) * B (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact lhs_rc_0 _ _
      | ⟨1, _⟩ => exact (lhs_rc_1 _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (rhs_rc_0 _ _).trans hk
      | ⟨1, _⟩ => exact rhs_rc_1 _ _)
  rw [el, er]

/-- Rows against rows, left operand, row axis: the result's row. -/
theorem lhs_rr_0 (i : S2048x1024.Idx) (k : dot_S2048x1024_S1024x1024_S2048x1024_1_1_0_0_n_n.contr.Idx) :
    (dot_S2048x1024_S1024x1024_S2048x1024_1_1_0_0_n_n.lhsIdx i k 0).val = (i 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl
/-- Rows against rows, left operand, column axis: the contraction coordinate. -/
theorem lhs_rr_1 (i : S2048x1024.Idx) (k : dot_S2048x1024_S1024x1024_S2048x1024_1_1_0_0_n_n.contr.Idx) :
    (dot_S2048x1024_S1024x1024_S2048x1024_1_1_0_0_n_n.lhsIdx i k 1).val = (k ⟨0, by decide⟩).val :=
  dot_S2048x1024_S1024x1024_S2048x1024_1_1_0_0_n_n.lhsIdx_val_of_single rfl i k
/-- Rows against rows, right operand, row axis: the result's column. -/
theorem rhs_rr_0 (i : S2048x1024.Idx) (k : dot_S2048x1024_S1024x1024_S2048x1024_1_1_0_0_n_n.contr.Idx) :
    (dot_S2048x1024_S1024x1024_S2048x1024_1_1_0_0_n_n.rhsIdx i k 0).val = (i 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl
/-- Rows against rows, right operand, column axis: the contraction coordinate. -/
theorem rhs_rr_1 (i : S2048x1024.Idx) (k : dot_S2048x1024_S1024x1024_S2048x1024_1_1_0_0_n_n.contr.Idx) :
    (dot_S2048x1024_S1024x1024_S2048x1024_1_1_0_0_n_n.rhsIdx i k 1).val = (k ⟨0, by decide⟩).val :=
  dot_S2048x1024_S1024x1024_S2048x1024_1_1_0_0_n_n.rhsIdx_val_of_single rfl i k

/-- Rows against rows: the product of a 2048 × 1024 block with a 1024 × 1024 block into the zero block, contracting the
    columns of both, is at `(p, q)` the sum over `k` of the left block at `(p, k)` times the right block at `(q, k)`: row
    `p` of the first against row `q` of the second. -/
theorem matmul_rows_rows {φ₁ φ₂ : FTy} (A : FVec Ideal S2048x1024 φ₁) (B : FVec Ideal S1024x1024 φ₂) (p : Fin 2048) (q : Fin 1024) :
    matmul dot_S2048x1024_S1024x1024_S2048x1024_1_1_0_0_n_n none A B (constant (F := Ideal) S2048x1024 .f32 0x00000000#32) (ix2 p q)
      = ∑ k : Fin 1024, A (ix2 p k) * B (ix2 q k) := by
  simp only [matmul]
  rw [Ideal.matmul_constant_zero_apply,
    ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q)
      ((contrEquiv1 dot_S2048x1024_S1024x1024_S2048x1024_1_1_0_0_n_n 1024 rfl rfl).symm k) = ix2 p k :=
    funext fun a => Fin.ext (by
      match a with
      | ⟨0, _⟩ => exact lhs_rr_0 _ _
      | ⟨1, _⟩ => exact (lhs_rr_1 _ _).trans hk)
  have er : dot_S2048x1024_S1024x1024_S2048x1024_1_1_0_0_n_n.rhsIdx (ix2 p q)
      ((contrEquiv1 dot_S2048x1024_S1024x1024_S2048x1024_1_1_0_0_n_n 1024 rfl rfl).symm k) = ix2 q k :=
    funext fun a => Fin.ext (by
      match a with
      | ⟨0, _⟩ => exact rhs_rr_0 _ _
      | ⟨1, _⟩ => exact (rhs_rr_1 _ _).trans hk)
  rw [el, er]

/-! ## The shared pieces: a row's sum, an affine layer, the normalisation -/

/-- The sum along each row of a 1024 × 1024 block, read at row `p`, is the sum over the columns `k` of the block at
    `(p, k)`. -/
theorem rowSum_apply (src : FVec Ideal S1024x1024 .f32) (p : Fin 1024) :
    multiReduction (F := Ideal) .add [1] S1024 src 0x00000000#32 reduces_S1024x1024_S1024 (.inl rfl) rfl (ix1 p)
      = ∑ k : Fin 1024, src (ix2 p k) := by
  refine (Ideal.multiReduction_add_single src 0x00000000#32 reduces_S1024x1024_S1024 (.inl rfl) rfl (ix1 p)).trans ?_
  refine Finset.sum_congr rfl fun k _ => congrArg src (funext fun a => Fin.ext ?_)
  match a with
  | ⟨0, _⟩ => rfl
  | ⟨1, _⟩ => rfl

/-- A product into the zero block plus a bias row repeated on every row is, at `(p, q)`, the affine layer applied to row
    `p` of the left block, at output `q`: the weight from input `i` to output `j` is the right block at `(i, j)`. -/
theorem affine_apply {φ₁ φ₂ : FTy} (A : FVec Ideal S1024x1024 φ₁) (B : FVec Ideal S1024x1024 φ₂) (b : FVec Ideal S1x1024 .f32)
    (p q : Fin 1024) :
    addf (matmul dot_S1024x1024_S1024x1024_S1024x1024_1_0_0_1_n_n none A B (constant (F := Ideal) S1024x1024 .f32 0x00000000#32))
        (broadcastTo S1024x1024 b broadcasts_S1x1024_S1024x1024) (ix2 p q)
      = Cert.CosSim.affine (fun i => A (ix2 p i)) (fun i j => B (ix2 i j)) (fun j => b (ix2 (0 : Fin 1) j)) q := by
  show matmul dot_S1024x1024_S1024x1024_S1024x1024_1_0_0_1_n_n none A B (constant (F := Ideal) S1024x1024 .f32 0x00000000#32) (ix2 p q)
      + broadcastTo S1024x1024 b broadcasts_S1x1024_S1024x1024 (ix2 p q) = _
  rw [matmul_rows_cols, broadcastTo_1b_ab_apply]
  rfl

/-- The normalisation tail: a block divided, row by row, by the clamped square root of the row's sum of squares — the
    sum kept as a column and spread back over the columns — is at `(p, q)` row `p` normalised, at `q`. The final
    narrowing of the format changes nothing on the extended reals. -/
theorem normalize_apply (Y : FVec Ideal S1024x1024 .f32) (p q : Fin 1024) :
    truncf .bf16 (divf Y (broadcastTo S1024x1024
        (maximumf (sqrt (shapeCast S1024x1
            (multiReduction (F := Ideal) .add [1] S1024 (mulf Y Y) 0x00000000#32 reduces_S1024x1024_S1024 (.inl rfl) rfl)
            shapeCasts_S1024_S1024x1))
          (broadcast S1024x1 (Scalar.ofBits (F := Ideal) .f32 0x322BCC77#32)))
        broadcasts_S1024x1_S1024x1024)) bitsLt_bf16_f32 (ix2 p q)
      = Cert.CosSim.normalize (fun h => Y (ix2 p h)) q := by
  show Ideal.div (Y (ix2 p q)) (broadcastTo S1024x1024
        (maximumf (sqrt (shapeCast S1024x1
            (multiReduction (F := Ideal) .add [1] S1024 (mulf Y Y) 0x00000000#32 reduces_S1024x1024_S1024 (.inl rfl) rfl)
            shapeCasts_S1024_S1024x1))
          (broadcast S1024x1 (Scalar.ofBits (F := Ideal) .f32 0x322BCC77#32)))
        broadcasts_S1024x1_S1024x1024 (ix2 p q)) = _
  rw [broadcastTo_a1_ab_apply]
  show Ideal.div (Y (ix2 p q)) (max (Ideal.sqrt (shapeCast S1024x1
            (multiReduction (F := Ideal) .add [1] S1024 (mulf Y Y) 0x00000000#32 reduces_S1024x1024_S1024 (.inl rfl) rfl)
            shapeCasts_S1024_S1024x1 (ix2 p (0 : Fin 1)))) (Ideal.ofBits .f32 0x322BCC77#32)) = _
  rw [shapeCast_a_a1_apply, rowSum_apply]
  rfl

/-! ## The keyword body -/

/-- The keyword body's stored block at `(p, q)` is the specification's keyword row of row `p` of the input block, at `q`:
    one affine layer, then the normalisation. -/
theorem pay_kw (X0 : Vec Ideal S1024x1024 .f32) (X1 : Vec Ideal S1024x1024 .bf16) (X2 : Vec Ideal S1x1024 .f32) (p q : Fin 1024) :
    k1_pay1 (F := Ideal) X0 X1 X2 (ix2 p q)
      = Cert.CosSim.kwRow (fun i => X0 (ix2 p i)) (fun i h => X1 (ix2 i h)) (fun h => X2 (ix2 (0 : Fin 1) h)) q := by
  unfold k1_pay1
  rw [shapeCast_self X1, shapeCast_self X2]
  exact (normalize_apply _ p q).trans
    (congrArg (fun v => Cert.CosSim.normalize v q) (funext fun h => affine_apply _ _ _ p h))

/-! ## The scoring body -/

/-- The scoring body's stored block at `(p, q)` is the score of row `p` of its first block against row `q` of its
    second: their inner product, plus the constant one, times the scale constant. -/
theorem pay_cos (K : Vec Ideal S2048x1024 .bf16) (Fb : Vec Ideal S1024x1024 .bf16) (p : Fin 2048) (q : Fin 1024) :
    k2_pay1 (F := Ideal) K Fb (ix2 p q) = Cert.CosSim.score (fun h => K (ix2 p h)) (fun h => Fb (ix2 q h)) := by
  unfold k2_pay1
  rw [shapeCast_self K, shapeCast_self Fb]
  show (matmul dot_S2048x1024_S1024x1024_S2048x1024_1_1_0_0_n_n none K Fb
          (constant (F := Ideal) S2048x1024 .f32 0x00000000#32) (ix2 p q) + Ideal.ofBits .f32 0x3F800000#32)
        * Ideal.ofBits .f32 0x3EFAE148#32 = _
  rw [matmul_rows_rows]
  rfl

/-! ## The feature body -/

/-- The feature body's stored block at `(p, q)` is the specification's feature row of row `p` of the input block, at `q`:
    an affine layer, the entrywise maximum with zero, a second affine layer, then the normalisation. The two narrowings
    of the format between the steps change nothing on the extended reals. -/
theorem pay_feat (X0 : Vec Ideal S1024x1024 .f32) (X1 : Vec Ideal S1024x1024 .bf16) (X2 : Vec Ideal S1x1024 .f32)
    (X3 : Vec Ideal S1024x1024 .bf16) (X4 : Vec Ideal S1x1024 .f32) (p q : Fin 1024) :
    k0_pay1 (F := Ideal) X0 X1 X2 X3 X4 (ix2 p q)
      = Cert.CosSim.featRow (fun i => X0 (ix2 p i)) (fun i j => X1 (ix2 i j)) (fun j => X2 (ix2 (0 : Fin 1) j))
          (fun j h => X3 (ix2 j h)) (fun h => X4 (ix2 (0 : Fin 1) h)) q := by
  unfold k0_pay1
  rw [shapeCast_self X1, shapeCast_self X2, shapeCast_self X3, shapeCast_self X4]
  refine (normalize_apply _ p q).trans (congrArg (fun v => Cert.CosSim.normalize v q) (funext fun h => ?_))
  refine (affine_apply _ _ _ p h).trans ?_
  refine congrArg (fun x => Cert.CosSim.affine x (fun j h => X3 (ix2 j h)) (fun h => X4 (ix2 (0 : Fin 1) h)) h)
    (funext fun i => ?_)
  exact congrArg (fun t => max t (Ideal.ofBits .f32 0x00000000#32)) (affine_apply _ _ _ p i)

end Cert.CosSim.Pay

end
-- ==== Proof.FeatureRows.lean ====
/-
  The feature region: 8192 feature rows through the two layers, normalised, in eight blocks of 1024 rows.

  Grid point `t` (of eight) takes rows 1024·t … 1024·t + 1023 of the feature array as its block, both prepared weight
  matrices and both prepared bias rows whole, and writes block `t` of the output. An entry of a block depends on its own
  row only (the body's value at (p, q) is the feature row of row p, at q), and row p of block t is row 1024·t + p of the
  array. So what point t writes back is block t of ONE function of the arrays, `rows`; the eight blocks cover all 8192
  rows (row r lies in block r / 1024), hence the array the region leaves is `rows`.
-/
import proofs.«116121_j87101936763140_2_alg».proof.Proof.Gen.KernelIdeal.Frame
import proofs.«116121_j87101936763140_2_alg».proof.Proof.Spec
import proofs.«116121_j87101936763140_2_alg».proof.Proof.Payload
import Idealize.ShloMosaic.Lib.Pipeline.Value
import Idealize.ShloMosaic.Lib.ValueIdx

set_option maxRecDepth 16384

noncomputable section

namespace Cert.CosSim.Feat

open Cert.KernelIdeal Cert.KernelIdeal.Gen Idealize.ShloMosaic Idealize.ShloMosaic.TcCoe Idealize.SL.Sem
open Idealize.ShloMosaic.ValueIdx
open Idealize.ShloMosaic.Pipeline (Dat)

/- The region's entry contents are a parameter: whatever the buffers hold when the region is entered. -/
variable (V : (c : Dev nD) → (b : Ref sig .tc) → Buf (Elt Ideal) ((c : Thread nD τ).loc b))

/-- Every access of the body starts at the origin of its block. -/
theorem origin : (![0, 0] : Fin 2 → Nat) = fun _ => 0 := funext fun a => by fin_cases a <;> rfl

/-- What the region leaves: at (r, h), the feature row of row r of the feature array (weights and biases as the region
    finds them: prepared, so read at (input, output) and at (0, output)), at h. -/
def rows (c : Dev nD) : S8192x1024.Idx → EReal := fun i =>
  featRow (fun k => V c main_arg0 (ix2 (i 0) k)) (fun a b => V c main_v1 (ix2 a b)) (fun j => V c main_v6 (ix2 (0 : Fin 1) j))
    (fun a b => V c main_v3 (ix2 a b)) (fun h => V c main_v7 (ix2 (0 : Fin 1) h)) (i 1)

/-- The windows' block indices at each of the eight grid points: the feature block and the output block move with the
    point along the rows; the weights and the biases stay at the origin. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `rows`: the body's value at (p, q) is the feature row of row p of the
    feature block, and each block's coordinate is the block index times the block's extent plus the coordinate inside. -/
theorem flushed_eq (c : Dev nD) (t : Fin cfg0.N) :
    (dat0 V c).flushed 5 t = ((cfg0.win 5).blk t).view.read (Elt Ideal) (rows V c) := by
  show (cfg0.win 5).cut (grid0.coords t) ((dat0 V c).after 5 t) = _
  rw [after0_5]
  unfold out0_5
  rw [View.canon_unit_zero origin]
  simp only [View.ld_unit_zero (S := S1024x1024) origin, View.ld_unit_zero (S := S1x1024) origin]
  funext j
  obtain ⟨p, q, rfl⟩ : ∃ (p q : Fin 1024), j = ix2 p q := ⟨j 0, j 1, eq_ix2 j⟩
  show k0_pay1 (iblk0 V c 0 t) (iblk0 V c 1 t) (iblk0 V c 2 t) (iblk0 V c 3 t) (iblk0 V c 4 t) (ix2 p q)
      = rows V c (((cfg0.win 5).blk t).view.emb (ix2 p q))
  refine (Cert.CosSim.Pay.pay_feat (iblk0 V c 0 t) (iblk0 V c 1 t) (iblk0 V c 2 t) (iblk0 V c 3 t) (iblk0 V c 4 t) p q).trans ?_
  obtain ⟨e0, e1, e2, e3, e4, e5, e6, e7, e8, e9, e10, e11⟩ := block_indices t
  have hp : p.val < 1024 := p.isLt
  have hq : q.val < 1024 := q.isLt
  have hx : (fun i : Fin 1024 => iblk0 V c 0 t (ix2 p i))
      = fun k : Fin 1024 => V c main_arg0 (ix2 ((((cfg0.win 5).blk t).view.emb (ix2 p q)) 0) k) := funext fun k => by
    show V c main_arg0 (((cfg0.win 0).blk t).view.emb (ix2 p k)) = _
    refine congrArg (V c main_arg0) (funext fun a => Fin.ext ?_)
    have hk : k.val < 1024 := k.isLt
    match a with
    | ⟨0, _⟩ => show win0_0.index t (0 : Fin 2) * 1024 + 1 * p.val = win0_5.index t (0 : Fin 2) * 1024 + 1 * p.val; omega
    | ⟨1, _⟩ => show win0_0.index t (1 : Fin 2) * 1024 + 1 * k.val = k.val; omega
  have hw1 : (fun i h : Fin 1024 => iblk0 V c 1 t (ix2 i h)) = fun a b : Fin 1024 => V c main_v1 (ix2 a b) := funext fun i => funext fun h => by
    show V c main_v1 (((cfg0.win 1).blk t).view.emb (ix2 i h)) = _
    refine congrArg (V c main_v1) (funext fun a => Fin.ext ?_)
    have hi : i.val < 1024 := i.isLt
    have hh : h.val < 1024 := h.isLt
    match a with
    | ⟨0, _⟩ => show win0_1.index t (0 : Fin 2) * 1024 + 1 * i.val = i.val; omega
    | ⟨1, _⟩ => show win0_1.index t (1 : Fin 2) * 1024 + 1 * h.val = h.val; omega
  have hb1 : (fun h : Fin 1024 => iblk0 V c 2 t (ix2 (0 : Fin 1) h)) = fun h : Fin 1024 => V c main_v6 (ix2 (0 : Fin 1) h) := funext fun h => by
    show V c main_v6 (((cfg0.win 2).blk t).view.emb (ix2 (0 : Fin 1) h)) = _
    refine congrArg (V c main_v6) (funext fun a => Fin.ext ?_)
    have hh : h.val < 1024 := h.isLt
    match a with
    | ⟨0, _⟩ => show win0_2.index t (0 : Fin 2) * 1 + 1 * (0 : Fin 1).val = (0 : Fin 1).val; simp only [Fin.val_zero]; omega
    | ⟨1, _⟩ => show win0_2.index t (1 : Fin 2) * 1024 + 1 * h.val = h.val; omega
  have hw2 : (fun i h : Fin 1024 => iblk0 V c 3 t (ix2 i h)) = fun a b : Fin 1024 => V c main_v3 (ix2 a b) := funext fun i => funext fun h => by
    show V c main_v3 (((cfg0.win 3).blk t).view.emb (ix2 i h)) = _
    refine congrArg (V c main_v3) (funext fun a => Fin.ext ?_)
    have hi : i.val < 1024 := i.isLt
    have hh : h.val < 1024 := h.isLt
    match a with
    | ⟨0, _⟩ => show win0_3.index t (0 : Fin 2) * 1024 + 1 * i.val = i.val; omega
    | ⟨1, _⟩ => show win0_3.index t (1 : Fin 2) * 1024 + 1 * h.val = h.val; omega
  have hb2 : (fun h : Fin 1024 => iblk0 V c 4 t (ix2 (0 : Fin 1) h)) = fun h : Fin 1024 => V c main_v7 (ix2 (0 : Fin 1) h) := funext fun h => by
    show V c main_v7 (((cfg0.win 4).blk t).view.emb (ix2 (0 : Fin 1) h)) = _
    refine congrArg (V c main_v7) (funext fun a => Fin.ext ?_)
    have hh : h.val < 1024 := h.isLt
    match a with
    | ⟨0, _⟩ => show win0_4.index t (0 : Fin 2) * 1 + 1 * (0 : Fin 1).val = (0 : Fin 1).val; simp only [Fin.val_zero]; omega
    | ⟨1, _⟩ => show win0_4.index t (1 : Fin 2) * 1024 + 1 * h.val = h.val; omega
  have hq' : (((cfg0.win 5).blk t).view.emb (ix2 p q)) 1 = q :=
    Fin.ext (by show win0_5.index t (1 : Fin 2) * 1024 + 1 * q.val = q.val; omega)
  unfold rows
  rw [hx, hw1, hb1, hw2, hb2, hq']

/-- An index of the output array is in point `t`'s block iff each coordinate is in the block's range on its axis. -/
theorem mem_block (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v9).slice (win0_5.rect t)).set ↔ _
  rw [View.set_slice_whole, Rect.mem_set_unit]
  exact Iff.rfl

/-- Every index of the output array is written: row r lies in the block of point r / 1024. -/
theorem covered (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have ht : (i 0).val / 1024 < 8 := by omega
  obtain ⟨e0, e1, e2, e3, e4, e5, e6, e7, e8, e9, e10, e11⟩ := block_indices ⟨(i 0).val / 1024, ht⟩
  refine ⟨⟨(i 0).val / 1024, ht⟩, flush0_5 _, ?_⟩
  rw [mem_block]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e10]; show (i 0).val / 1024 * 1024 ≤ (i 0).val ∧ (i 0).val < (i 0).val / 1024 * 1024 + 1024; omega
  | ⟨1, _⟩ =>
    show win0_5.index ⟨(i 0).val / 1024, ht⟩ (1 : Fin 2) * 1024 ≤ (i 1).val ∧ (i 1).val < win0_5.index ⟨(i 0).val / 1024, ht⟩ (1 : Fin 2) * 1024 + 1024
    rw [e11]; omega

/-- The array the region leaves is `rows`. -/
theorem final (c : Dev nD) : (dat0 V c).arrAt 5 cfg0.N = rows V c :=
  (dat0 V c).arrAt_eq_of_cover 5 (rows V c) (fun t _ => flushed_eq V c t) covered

end Cert.CosSim.Feat

end
-- ==== Proof.KeywordRows.lean ====
/-
  The keyword region: 4096 keyword rows, normalised, in four blocks of 1024 rows.

  Grid point `t` (of four) takes rows 1024·t … 1024·t + 1023 of the keyword array as its block, the whole prepared weight
  matrix and the whole prepared bias row, and writes block `t` of the output. An entry of a block depends on its own row
  only (the body's value at (p, q) is the keyword row of row p, at q), and row p of block t is row 1024·t + p of the
  array. So what point t writes back is block t of ONE function of the arrays, `rows`; the four blocks cover all 4096
  rows (row r lies in block r / 1024), hence the array the region leaves is `rows`.
-/
import proofs.«116121_j87101936763140_2_alg».proof.Proof.Gen.KernelIdeal.Frame
import proofs.«116121_j87101936763140_2_alg».proof.Proof.Spec
import proofs.«116121_j87101936763140_2_alg».proof.Proof.Payload
import Idealize.ShloMosaic.Lib.Pipeline.Value
import Idealize.ShloMosaic.Lib.ValueIdx

set_option maxRecDepth 16384

noncomputable section

namespace Cert.CosSim.Kw

open Cert.KernelIdeal Cert.KernelIdeal.Gen Idealize.ShloMosaic Idealize.ShloMosaic.TcCoe Idealize.SL.Sem
open Idealize.ShloMosaic.ValueIdx
open Idealize.ShloMosaic.Pipeline (Dat)

/- The region's entry contents are a parameter: whatever the buffers hold when the region is entered. -/
variable (V : (c : Dev nD) → (b : Ref sig .tc) → Buf (Elt Ideal) ((c : Thread nD τ).loc b))

/-- Every access of the body starts at the origin of its block. -/
theorem origin : (![0, 0] : Fin 2 → Nat) = fun _ => 0 := funext fun a => by fin_cases a <;> rfl

/-- What the region leaves: at (r, h), the keyword row of row r of the keyword array (weights and bias as the region finds
    them: prepared, so read at (input, output) and at (0, output)), at h. -/
def rows (c : Dev nD) : S4096x1024.Idx → EReal := fun i =>
  kwRow (fun k => V c main_arg1 (ix2 (i 0) k)) (fun a b => V c main_v5 (ix2 a b)) (fun h => V c main_v8 (ix2 (0 : Fin 1) h)) (i 1)

/-- The windows' block indices at each of the four grid points: the keyword block and the output block move with the
    point along the rows; the weight and the bias stay at the origin. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `rows`: the body's value at (p, q) is the keyword row of row p of the
    keyword block, and each block's coordinate is the block index times the block's extent plus the coordinate inside. -/
theorem flushed_eq (c : Dev nD) (t : Fin cfg1.N) :
    (dat1 V c).flushed 3 t = ((cfg1.win 3).blk t).view.read (Elt Ideal) (rows V c) := by
  show (cfg1.win 3).cut (grid1.coords t) ((dat1 V c).after 3 t) = _
  rw [after1_3]
  unfold out1_3
  rw [View.canon_unit_zero origin]
  simp only [View.ld_unit_zero (S := S1024x1024) origin, View.ld_unit_zero (S := S1x1024) origin]
  funext j
  obtain ⟨p, q, rfl⟩ : ∃ (p q : Fin 1024), j = ix2 p q := ⟨j 0, j 1, eq_ix2 j⟩
  show k1_pay1 (iblk1 V c 0 t) (iblk1 V c 1 t) (iblk1 V c 2 t) (ix2 p q) = rows V c (((cfg1.win 3).blk t).view.emb (ix2 p q))
  refine (Cert.CosSim.Pay.pay_kw (iblk1 V c 0 t) (iblk1 V c 1 t) (iblk1 V c 2 t) p q).trans ?_
  obtain ⟨e0, e1, e2, e3, e4, e5, e6, e7⟩ := block_indices t
  have hp : p.val < 1024 := p.isLt
  have hq : q.val < 1024 := q.isLt
  have hx : (fun i : Fin 1024 => iblk1 V c 0 t (ix2 p i))
      = fun k : Fin 1024 => V c main_arg1 (ix2 ((((cfg1.win 3).blk t).view.emb (ix2 p q)) 0) k) := funext fun k => by
    show V c main_arg1 (((cfg1.win 0).blk t).view.emb (ix2 p k)) = _
    refine congrArg (V c main_arg1) (funext fun a => Fin.ext ?_)
    have hk : k.val < 1024 := k.isLt
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * k.val = k.val; omega
  have hw : (fun i h : Fin 1024 => iblk1 V c 1 t (ix2 i h)) = fun a b : Fin 1024 => V c main_v5 (ix2 a b) := funext fun i => funext fun h => by
    show V c main_v5 (((cfg1.win 1).blk t).view.emb (ix2 i h)) = _
    refine congrArg (V c main_v5) (funext fun a => Fin.ext ?_)
    have hi : i.val < 1024 := i.isLt
    have hh : h.val < 1024 := h.isLt
    match a with
    | ⟨0, _⟩ => show win1_1.index t (0 : Fin 2) * 1024 + 1 * i.val = i.val; omega
    | ⟨1, _⟩ => show win1_1.index t (1 : Fin 2) * 1024 + 1 * h.val = h.val; omega
  have hb : (fun h : Fin 1024 => iblk1 V c 2 t (ix2 (0 : Fin 1) h)) = fun h : Fin 1024 => V c main_v8 (ix2 (0 : Fin 1) h) := funext fun h => by
    show V c main_v8 (((cfg1.win 2).blk t).view.emb (ix2 (0 : Fin 1) h)) = _
    refine congrArg (V c main_v8) (funext fun a => Fin.ext ?_)
    have hh : h.val < 1024 := h.isLt
    match a with
    | ⟨0, _⟩ => show win1_2.index t (0 : Fin 2) * 1 + 1 * (0 : Fin 1).val = (0 : Fin 1).val; simp only [Fin.val_zero]; omega
    | ⟨1, _⟩ => show win1_2.index t (1 : Fin 2) * 1024 + 1 * h.val = h.val; omega
  have hq' : (((cfg1.win 3).blk t).view.emb (ix2 p q)) 1 = q :=
    Fin.ext (by show win1_3.index t (1 : Fin 2) * 1024 + 1 * q.val = q.val; omega)
  unfold rows
  rw [hx, hw, hb, hq']

/-- An index of the output array is in point `t`'s block iff each coordinate is in the block's range on its axis. -/
theorem mem_block (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v10).slice (win1_3.rect t)).set ↔ _
  rw [View.set_slice_whole, Rect.mem_set_unit]
  exact Iff.rfl

/-- Every index of the output array is written: row r lies in the block of point r / 1024. -/
theorem covered (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have ht : (i 0).val / 1024 < 4 := by omega
  obtain ⟨e0, e1, e2, e3, e4, e5, e6, e7⟩ := block_indices ⟨(i 0).val / 1024, ht⟩
  refine ⟨⟨(i 0).val / 1024, ht⟩, flush1_3 _, ?_⟩
  rw [mem_block]
  intro a
  match a with
  | ⟨0, _⟩ =>
    show win1_3.index ⟨(i 0).val / 1024, ht⟩ (0 : Fin 2) * 1024 ≤ (i 0).val ∧ (i 0).val < win1_3.index ⟨(i 0).val / 1024, ht⟩ (0 : Fin 2) * 1024 + 1024
    rw [e6]; show (i 0).val / 1024 * 1024 ≤ (i 0).val ∧ (i 0).val < (i 0).val / 1024 * 1024 + 1024; omega
  | ⟨1, _⟩ =>
    show win1_3.index ⟨(i 0).val / 1024, ht⟩ (1 : Fin 2) * 1024 ≤ (i 1).val ∧ (i 1).val < win1_3.index ⟨(i 0).val / 1024, ht⟩ (1 : Fin 2) * 1024 + 1024
    rw [e7]; omega

/-- The array the region leaves is `rows`. -/
theorem final (c : Dev nD) : (dat1 V c).arrAt 3 cfg1.N = rows V c :=
  (dat1 V c).arrAt_eq_of_cover 3 (rows V c) (fun t _ => flushed_eq V c t) covered

end Cert.CosSim.Kw

end
-- ==== Proof.Scores.lean ====
/-
  The scoring region: the 4096 × 8192 result in sixteen blocks of 2048 × 1024.

  Grid point `t` (of sixteen: two block-rows by eight block-columns, so block-row t / 8 and block-column t % 8) takes 2048
  rows of the normalised keywords and 1024 rows of the normalised features and writes the block of their scores. The
  body's value at (p, q) is the score of row p of the keyword block against row q of the feature block, and those are
  rows 2048·(t / 8) + p and 1024·(t % 8) + q of the two arrays. So what point t writes back is block t of ONE function,
  `scores`; the sixteen blocks cover the result (entry (a, b) lies in the block of point (a / 2048)·8 + b / 1024), hence
  the array the region leaves is `scores`.
-/
import proofs.«116121_j87101936763140_2_alg».proof.Proof.Gen.KernelIdeal.Frame
import proofs.«116121_j87101936763140_2_alg».proof.Proof.Spec
import proofs.«116121_j87101936763140_2_alg».proof.Proof.Payload
import Idealize.ShloMosaic.Lib.Pipeline.Value
import Idealize.ShloMosaic.Lib.ValueIdx

set_option maxRecDepth 16384

noncomputable section

namespace Cert.CosSim.Cos

open Cert.KernelIdeal Cert.KernelIdeal.Gen Idealize.ShloMosaic Idealize.ShloMosaic.TcCoe Idealize.SL.Sem
open Idealize.ShloMosaic.ValueIdx
open Idealize.ShloMosaic.Pipeline (Dat)

/- The region's entry contents are a parameter: whatever the buffers hold when the region is entered. -/
variable (V : (c : Dev nD) → (b : Ref sig .tc) → Buf (Elt Ideal) ((c : Thread nD τ).loc b))

/-- Every access of the body starts at the origin of its block. -/
theorem origin : (![0, 0] : Fin 2 → Nat) = fun _ => 0 := funext fun a => by fin_cases a <;> rfl

/-- What the region leaves: at (a, b), the score of row a of the normalised keywords against row b of the normalised
    features, both as the region finds them. -/
def scores (c : Dev nD) : S4096x8192.Idx → EReal := fun i =>
  score (fun h => V c main_v10 (ix2 (i 0) h)) (fun h => V c main_v9 (ix2 (i 1) h))

/-- The windows' block indices at each of the sixteen grid points. -/
theorem block_indices : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- What point `t` writes back is block `t` of `scores`. -/
theorem flushed_eq (c : Dev nD) (t : Fin cfg2.N) :
    (dat2 V c).flushed 2 t = ((cfg2.win 2).blk t).view.read (Elt Ideal) (scores V c) := by
  show (cfg2.win 2).cut (grid2.coords t) ((dat2 V c).after 2 t) = _
  rw [after2_2]
  unfold out2_2
  rw [View.canon_unit_zero origin]
  simp only [View.ld_unit_zero (S := S2048x1024) origin, View.ld_unit_zero (S := S1024x1024) origin]
  funext j
  obtain ⟨p, q, rfl⟩ : ∃ (p : Fin 2048) (q : Fin 1024), j = ix2 p q := ⟨j 0, j 1, eq_ix2 j⟩
  show k2_pay1 (iblk2 V c 0 t) (iblk2 V c 1 t) (ix2 p q) = scores V c (((cfg2.win 2).blk t).view.emb (ix2 p q))
  refine (Cert.CosSim.Pay.pay_cos (iblk2 V c 0 t) (iblk2 V c 1 t) p q).trans ?_
  obtain ⟨e0, e1, e2, e3, e4, e5⟩ := block_indices t
  have hp : p.val < 2048 := p.isLt
  have hq : q.val < 1024 := q.isLt
  have hk : (fun h : Fin 1024 => iblk2 V c 0 t (ix2 p h))
      = fun h : Fin 1024 => V c main_v10 (ix2 ((((cfg2.win 2).blk t).view.emb (ix2 p q)) 0) h) := funext fun h => by
    show V c main_v10 (((cfg2.win 0).blk t).view.emb (ix2 p h)) = _
    refine congrArg (V c main_v10) (funext fun a => Fin.ext ?_)
    have hh : h.val < 1024 := h.isLt
    match a with
    | ⟨0, _⟩ => show win2_0.index t (0 : Fin 2) * 2048 + 1 * p.val = win2_2.index t (0 : Fin 2) * 2048 + 1 * p.val; omega
    | ⟨1, _⟩ => show win2_0.index t (1 : Fin 2) * 1024 + 1 * h.val = h.val; omega
  have hf : (fun h : Fin 1024 => iblk2 V c 1 t (ix2 q h))
      = fun h : Fin 1024 => V c main_v9 (ix2 ((((cfg2.win 2).blk t).view.emb (ix2 p q)) 1) h) := funext fun h => by
    show V c main_v9 (((cfg2.win 1).blk t).view.emb (ix2 q h)) = _
    refine congrArg (V c main_v9) (funext fun a => Fin.ext ?_)
    have hh : h.val < 1024 := h.isLt
    match a with
    | ⟨0, _⟩ => show win2_1.index t (0 : Fin 2) * 1024 + 1 * q.val = win2_2.index t (1 : Fin 2) * 1024 + 1 * q.val; omega
    | ⟨1, _⟩ => show win2_1.index t (1 : Fin 2) * 1024 + 1 * h.val = h.val; omega
  unfold scores
  rw [hk, hf]

/-- An index of the result is in point `t`'s block iff each coordinate is in the block's range on its axis. -/
theorem mem_block (t : Fin cfg2.N) (i : S4096x8192.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v11).slice (win2_2.rect t)).set ↔ _
  rw [View.set_slice_whole, Rect.mem_set_unit]
  exact Iff.rfl

/-- Every index of the result is written: entry (a, b) lies in the block of point (a / 2048)·8 + b / 1024. -/
theorem covered (i : S4096x8192.Idx) :
    ∃ t : Fin cfg2.N, (cfg2.win 2).flush t = true ∧ i ∈ ((cfg2.win 2).blk t).view.set := by
  have hi0 : (i 0).val < 4096 := (i 0).isLt
  have hi1 : (i 1).val < 8192 := (i 1).isLt
  have ht : (i 0).val / 2048 * 8 + (i 1).val / 1024 < 16 := by omega
  obtain ⟨e0, e1, e2, e3, e4, e5⟩ := block_indices ⟨(i 0).val / 2048 * 8 + (i 1).val / 1024, ht⟩
  refine ⟨⟨(i 0).val / 2048 * 8 + (i 1).val / 1024, ht⟩, flush2_2 _, ?_⟩
  rw [mem_block]
  intro a
  match a with
  | ⟨0, _⟩ =>
    show win2_2.index ⟨(i 0).val / 2048 * 8 + (i 1).val / 1024, ht⟩ (0 : Fin 2) * 2048 ≤ (i 0).val ∧ (i 0).val < win2_2.index ⟨(i 0).val / 2048 * 8 + (i 1).val / 1024, ht⟩ (0 : Fin 2) * 2048 + 2048
    rw [e4]; show ((i 0).val / 2048 * 8 + (i 1).val / 1024) / 8 * 2048 ≤ (i 0).val ∧ (i 0).val < ((i 0).val / 2048 * 8 + (i 1).val / 1024) / 8 * 2048 + 2048; omega
  | ⟨1, _⟩ =>
    show win2_2.index ⟨(i 0).val / 2048 * 8 + (i 1).val / 1024, ht⟩ (1 : Fin 2) * 1024 ≤ (i 1).val ∧ (i 1).val < win2_2.index ⟨(i 0).val / 2048 * 8 + (i 1).val / 1024, ht⟩ (1 : Fin 2) * 1024 + 1024
    rw [e5]; show ((i 0).val / 2048 * 8 + (i 1).val / 1024) % 8 * 1024 ≤ (i 1).val ∧ (i 1).val < ((i 0).val / 2048 * 8 + (i 1).val / 1024) % 8 * 1024 + 1024; omega

/-- The array the region leaves is `scores`. -/
theorem final (c : Dev nD) : (dat2 V c).arrAt 2 cfg2.N = scores V c :=
  (dat2 V c).arrAt_eq_of_cover 2 (scores V c) (fun t _ => flushed_eq V c t) covered

end Cert.CosSim.Cos

end
-- ==== Proof.KernelValue.lean ====
/-
  The idealized kernel computes the specification.

  The result buffer ends as the scoring region leaves it: at (q, r), the score of row q of the normalised keywords against
  row r of the normalised features, as that region finds them. It finds them as the keyword region and the feature region
  left them: row q of the one is the keyword row of row q of the keyword array, row r of the other the feature row of row r
  of the feature array — with the prepared weights and biases, which are the argument matrices read transposed and the
  argument vectors read along their one row. Putting the three together, the result at (q, r) is the specification's.
-/
import proofs.«116121_j87101936763140_2_alg».proof.Proof.Spec
import proofs.«116121_j87101936763140_2_alg».proof.Proof.KernelRun
import proofs.«116121_j87101936763140_2_alg».proof.Proof.HostReads
import proofs.«116121_j87101936763140_2_alg».proof.Proof.FeatureRows
import proofs.«116121_j87101936763140_2_alg».proof.Proof.KeywordRows
import proofs.«116121_j87101936763140_2_alg».proof.Proof.Scores

set_option maxRecDepth 16384

noncomputable section

namespace Cert.CosSim.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The normalised keywords the scoring region finds: at (q, h), the specification's keyword row q, at h. -/
theorem keywords_at (c : Dev nD) (q : Fin 4096) (h : Fin 1024) :
    V3 m ρ c main_v10 (ix2 q h) = kwUnit (m ((c : Thread nD τ).loc main_arg1)) (m ((c : Thread nD τ).loc main_arg6)) (m ((c : Thread nD τ).loc main_arg7)) q h := by
  refine (congrFun (Host.V3_v10 m ρ c) (ix2 q h)).trans ?_
  refine (congrFun (Kw.final (V2 m ρ) c) (ix2 q h)).trans ?_
  show kwRow (fun k => V2 m ρ c main_arg1 (ix2 q k)) (fun a b => V2 m ρ c main_v5 (ix2 a b))
      (fun h => V2 m ρ c main_v8 (ix2 (0 : Fin 1) h)) h = _
  have e1 : (fun k : Fin 1024 => V2 m ρ c main_arg1 (ix2 q k)) = fun i : Fin 1024 => (m ((c : Thread nD τ).loc main_arg1)) (ix2 q i) :=
    funext fun k => congrFun (Host.V2_arg1 m ρ c) (ix2 q k)
  have e2 : (fun a b : Fin 1024 => V2 m ρ c main_v5 (ix2 a b)) = fun i h : Fin 1024 => (m ((c : Thread nD τ).loc main_arg6)) (ix2 h i) :=
    funext fun a => funext fun b => Host.V2_v5_at m ρ c a b
  have e3 : (fun h : Fin 1024 => V2 m ρ c main_v8 (ix2 (0 : Fin 1) h)) = fun h : Fin 1024 => (m ((c : Thread nD τ).loc main_arg7)) (ix1 h) :=
    funext fun h => Host.V2_v8_at m ρ c h
  rw [e1, e2, e3]
  rfl

/-- The normalised features the scoring region finds: at (r, h), the specification's feature row r, at h. -/
theorem features_at (c : Dev nD) (r : Fin 8192) (h : Fin 1024) :
    V3 m ρ c main_v9 (ix2 r h) = featUnit (m ((c : Thread nD τ).loc main_arg0)) (m ((c : Thread nD τ).loc main_arg2)) (m ((c : Thread nD τ).loc main_arg3)) (m ((c : Thread nD τ).loc main_arg4)) (m ((c : Thread nD τ).loc main_arg5)) r h := by
  refine (congrFun (Host.V3_v9 m ρ c) (ix2 r h)).trans ?_
  refine (congrFun (Feat.final (V1 m ρ) c) (ix2 r h)).trans ?_
  show featRow (fun k => V1 m ρ c main_arg0 (ix2 r k)) (fun a b => V1 m ρ c main_v1 (ix2 a b))
      (fun j => V1 m ρ c main_v6 (ix2 (0 : Fin 1) j)) (fun a b => V1 m ρ c main_v3 (ix2 a b))
      (fun h => V1 m ρ c main_v7 (ix2 (0 : Fin 1) h)) h = _
  have e0 : (fun k : Fin 1024 => V1 m ρ c main_arg0 (ix2 r k)) = fun i : Fin 1024 => (m ((c : Thread nD τ).loc main_arg0)) (ix2 r i) :=
    funext fun k => congrFun (Host.V1_arg0 m ρ c) (ix2 r k)
  have e1 : (fun a b : Fin 1024 => V1 m ρ c main_v1 (ix2 a b)) = fun i j : Fin 1024 => (m ((c : Thread nD τ).loc main_arg2)) (ix2 j i) :=
    funext fun a => funext fun b => Host.V1_v1_at m ρ c a b
  have e2 : (fun j : Fin 1024 => V1 m ρ c main_v6 (ix2 (0 : Fin 1) j)) = fun j : Fin 1024 => (m ((c : Thread nD τ).loc main_arg3)) (ix1 j) :=
    funext fun j => Host.V1_v6_at m ρ c j
  have e3 : (fun a b : Fin 1024 => V1 m ρ c main_v3 (ix2 a b)) = fun j h : Fin 1024 => (m ((c : Thread nD τ).loc main_arg4)) (ix2 h j) :=
    funext fun a => funext fun b => Host.V1_v3_at m ρ c a b
  have e4 : (fun h : Fin 1024 => V1 m ρ c main_v7 (ix2 (0 : Fin 1) h)) = fun h : Fin 1024 => (m ((c : Thread nD τ).loc main_arg5)) (ix1 h) :=
    funext fun h => Host.V1_v7_at m ρ c h
  rw [e0, e1, e2, e3, e4]
  rfl

/-- The result buffer's final contents are the specification of the eight argument arrays. -/
theorem value (c : Dev nD) :
    W4 m ρ c (Proc.devRef .tc main_v11)
      = Cert.CosSim.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Host.W4_v11 m ρ c).trans ?_
  refine (Cos.final (V3 m ρ) c).trans ?_
  funext i
  obtain ⟨q, r, rfl⟩ : ∃ (q : Fin 4096) (r : Fin 8192), i = ix2 q r := ⟨i 0, i 1, eq_ix2 i⟩
  rw [Cert.CosSim.out_ix2]
  show score (fun h => V3 m ρ c main_v10 (ix2 q h)) (fun h => V3 m ρ c main_v9 (ix2 r h)) = _
  rw [show (fun h : Fin 1024 => V3 m ρ c main_v10 (ix2 q h)) = kwUnit (m ((c : Thread nD τ).loc main_arg1)) (m ((c : Thread nD τ).loc main_arg6)) (m ((c : Thread nD τ).loc main_arg7)) q
        from funext fun h => keywords_at m ρ c q h,
      show (fun h : Fin 1024 => V3 m ρ c main_v9 (ix2 r h)) = featUnit (m ((c : Thread nD τ).loc main_arg0)) (m ((c : Thread nD τ).loc main_arg2)) (m ((c : Thread nD τ).loc main_arg3)) (m ((c : Thread nD τ).loc main_arg4)) (m ((c : Thread nD τ).loc main_arg5)) r
        from funext fun h => features_at m ρ c r h]

/-- The idealized kernel's run: it terminates without a fault, the result is the specification of the arguments, and the
    arguments end as launched. -/
theorem run : θ_run defs (onTc (τ := τ) (main (F := Ideal))) ⟨m, fun _ => 0, ρ⟩ (fun r => ∀ c : Dev nD,
      r.2.mem ((c.tc : Thread nD τ).loc main_v11)
        = Cert.CosSim.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (Cert.KernelIdeal.Named.run m ρ)

end Cert.CosSim.Kernel

end
-- ==== Proof.lean ====
/-
  A cosine-similarity kernel against its plain reference, on the extended reals.

  Both programs take 8192 feature rows and 4096 keyword rows of length 1024. A feature row goes through an affine layer,
  a rectifier and a second affine layer; a keyword row through one affine layer; each is then divided by its Euclidean norm
  clamped from below at a small constant. The result at (keyword q, feature r) is the inner product of the two normalised
  rows, plus one, times a scale constant (Proof/Spec.lean states this row by row).

  The kernel does it in three regions: the normalised features in eight blocks of rows (Proof/FeatureRows.lean), the
  normalised keywords in four (Proof/KeywordRows.lean), and the scores in sixteen blocks (Proof/Scores.lean), from weights
  transposed and biases reshaped beforehand (Proof/HostReads.lean); each body's value at an entry depends on that entry's
  row or rows only (Proof/Payload.lean), so each region writes the blocks of one function of its arrays, and the three
  compose to the specification (Proof/KernelRun.lean, Proof/KernelValue.lean). The reference does the same arithmetic on
  whole arrays, one operation at a time (Proof/RefValue.lean). Nothing in the comparison needs the inputs to be finite: the
  two sides are the same sums, products, maxima, square roots and quotients, differing only in how the arrays are cut into
  blocks, in which order a matrix is stored, and in number formats, which the extended reals do not see.
-/
import proofs.«116121_j87101936763140_2_alg».proof.Defs
import proofs.«116121_j87101936763140_2_alg».proof.Proof.Gen.Kernel
import proofs.«116121_j87101936763140_2_alg».proof.Proof.Gen.Kernel.Skeleton
import proofs.«116121_j87101936763140_2_alg».proof.Proof.Gen.Kernel.Launch
import proofs.«116121_j87101936763140_2_alg».proof.Proof.Gen.Kernel.Points
import proofs.«116121_j87101936763140_2_alg».proof.Proof.Gen.Kernel.Frame
import proofs.«116121_j87101936763140_2_alg».proof.Proof.Gen.KernelIdeal
import proofs.«116121_j87101936763140_2_alg».proof.Proof.Gen.KernelIdeal.Skeleton
import proofs.«116121_j87101936763140_2_alg».proof.Proof.Gen.KernelIdeal.Launch
import proofs.«116121_j87101936763140_2_alg».proof.Proof.Gen.KernelIdeal.Points
import proofs.«116121_j87101936763140_2_alg».proof.Proof.Gen.KernelIdeal.Frame
import proofs.«116121_j87101936763140_2_alg».proof.Proof.Gen.ReferenceIdeal
import proofs.«116121_j87101936763140_2_alg».proof.Proof.Gen.Pre_finite_inputs
import proofs.«116121_j87101936763140_2_alg».proof.Proof.Gen.ReferenceIdeal.Run
import proofs.«116121_j87101936763140_2_alg».proof.Proof.Gen.ReferenceIdeal.Read
import proofs.«116121_j87101936763140_2_alg».proof.Proof.Spec
import proofs.«116121_j87101936763140_2_alg».proof.Proof.RefValue
import proofs.«116121_j87101936763140_2_alg».proof.Proof.KernelValue
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the eight arguments, both idealized programs end with the specification of those
    arguments in their result: the kernel by its three regions, the reference one operation at a time. -/
theorem algebraic : Cert.algebraic_KernelIdeal_ReferenceIdeal := by
  intro m ρ m' ρ' _ hagree
  refine ⟨fun c => Cert.CosSim.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.CosSim.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.CosSim.Ref.ref_out,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
